-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 28
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x128, .f32⟩
  | .hbm, ⟨24, _⟩ => ⟨S128x128, .f32⟩
  | .hbm, ⟨25, _⟩ => ⟨S1x128, .f32⟩
  | .hbm, ⟨26, _⟩ => ⟨S1x128, .f32⟩
  | .hbm, ⟨27, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S128x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Blocks.lean ====
/-
  Where each window's block sits in its array.

  The region's seven windows: the neighbour sums, the node features and the result move with the grid point — block
  `t` is rows `5000·t … 5000·t + 4999`, all 128 features — while the two weight matrices and the two bias rows stay
  at their one block. So row `p` of block `t` of a moving window is row `5000·t + p` of its array, and an entry of a
  fixed window's block is the same entry of its array.
-/
import proofs.«180615_j59596966199955_1_alg».proof.Proof.Gen.KernelIdeal.Value
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

theorem offsets_zero : (![0, 0] : Fin 2 → Nat) = fun _ => 0 := funext fun a => by fin_cases a <;> rfl

/-! ## Where each window's block sits -/

/-- The printed index maps, decided over the twenty grid points: the three moving windows are at block row `t`,
    column block `0`; the four fixed windows at block `(0, 0)`. -/
theorem block_indices : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 20 := by
  have h : t.val < grid0.N := t.isLt
  rw [N_0] at h
  exact h

/-- Row `p` of block `t` is row `5000·t + p` of the array. -/
def row (t : Fin cfg0.N) (p : Fin 5000) : Fin 100000 :=
  ⟨t.val * 5000 + p.val, by have := point_lt t; have := p.isLt; omega⟩

/-- An entry of block `t` of a moving window, in the array. -/
theorem emb_moving0 (t : Fin cfg0.N) (p : Fin 5000) (k : Fin 128) :
    ((cfg0.win 0).blk t).view.emb (ix2 p k) = ix2 (row t p) k := by
  obtain ⟨e0, e1, -⟩ := block_indices t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb_moving1 (t : Fin cfg0.N) (p : Fin 5000) (k : Fin 128) :
    ((cfg0.win 1).blk t).view.emb (ix2 p k) = ix2 (row t p) k := by
  obtain ⟨-, -, e0, e1, -⟩ := block_indices t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

theorem emb_moving6 (t : Fin cfg0.N) (p : Fin 5000) (k : Fin 128) :
    ((cfg0.win 6).blk t).view.emb (ix2 p k) = ix2 (row t p) k := by
  obtain ⟨-, -, -, -, -, -, -, -, -, -, -, -, e0, e1⟩ := block_indices t
  funext a; apply Fin.ext
  match a with
  | ⟨0, _⟩ => show win0_6.index t (0 : Fin 2) * 5000 + 1 * p.val = t.val * 5000 + p.val; omega
  | ⟨1, _⟩ => show win0_6.index t (1 : Fin 2) * 128 + 1 * k.val = k.val; omega

/-- An entry of a fixed window's one block is the same entry of its array. -/
theorem emb_fixed2 (t : Fin cfg0.N) (k j : Fin 128) : ((cfg0.win 2).blk t).view.emb (ix2 k j) = ix2 k j := by
  obtain ⟨-, -, -, -, e0, e1, -⟩ := block_indices t
  funext a; apply Fin.ext
  match a with
  | ⟨0, _⟩ => show win0_2.index t (0 : Fin 2) * 128 + 1 * k.val = k.val; omega
  | ⟨1, _⟩ => show win0_2.index t (1 : Fin 2) * 128 + 1 * j.val = j.val; omega

theorem emb_fixed4 (t : Fin cfg0.N) (k j : Fin 128) : ((cfg0.win 4).blk t).view.emb (ix2 k j) = ix2 k j := by
  obtain ⟨-, -, -, -, -, -, -, -, e0, e1, -⟩ := block_indices t
  funext a; apply Fin.ext
  match a with
  | ⟨0, _⟩ => show win0_4.index t (0 : Fin 2) * 128 + 1 * k.val = k.val; omega
  | ⟨1, _⟩ => show win0_4.index t (1 : Fin 2) * 128 + 1 * j.val = j.val; omega

theorem emb_fixed3 (t : Fin cfg0.N) (u : Fin 1) (j : Fin 128) : ((cfg0.win 3).blk t).view.emb (ix2 u j) = ix2 u j := by
  obtain ⟨-, -, -, -, -, -, e0, e1, -⟩ := block_indices t
  funext a; apply Fin.ext
  match a with
  | ⟨0, _⟩ => show win0_3.index t (0 : Fin 2) * 1 + 1 * u.val = u.val; omega
  | ⟨1, _⟩ => show win0_3.index t (1 : Fin 2) * 128 + 1 * j.val = j.val; omega

theorem emb_fixed5 (t : Fin cfg0.N) (u : Fin 1) (j : Fin 128) : ((cfg0.win 5).blk t).view.emb (ix2 u j) = ix2 u j := by
  obtain ⟨-, -, -, -, -, -, -, -, -, -, e0, e1, -⟩ := block_indices t
  funext a; apply Fin.ext
  match a with
  | ⟨0, _⟩ => show win0_5.index t (0 : Fin 2) * 1 + 1 * u.val = u.val; omega
  | ⟨1, _⟩ => show win0_5.index t (1 : Fin 2) * 128 + 1 * j.val = j.val; omega

end Cert.KernelIdeal.Blocks

end
-- ==== Proof.BlockValue.lean ====
/-
  What the kernel body computes for one block of 5000 nodes, read at an entry.

  The body loads a block of neighbour sums and a block of node features (5000 rows by 128 features each), the two
  weight matrices (contraction axis first) and the two bias rows; it multiplies each block by its matrix into a zero
  accumulator, adds the bias row to every row of each product, and adds the two results. On the extended reals the
  narrowing of the operands to a shorter float format is the identity, a product into a zero accumulator is the plain
  sum over the contracted feature, and a row repeated along the rows reads its one row; so entry `(p, j)` of the
  block is

      (Σ_k a(p,k) · wn(k,j) + bn(0,j)) + (Σ_k x(p,k) · ws(k,j) + bs(0,j)).
-/
import proofs.«180615_j59596966199955_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## Which entries of its operands a product's entry reads -/

/-- The left operand is read in the result's row … -/
theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … at the contracted feature; -/
theorem lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted feature … -/
theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- … in the result's column. -/
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block of 5000 rows times a 128-by-128 matrix, accumulated into zero: entry `(p, j)` is the sum over the
    contracted feature `k` of the block's `(p, k)` times the matrix's `(k, j)`. -/
theorem blockProduct_apply (l : FVec Ideal S5000x128 .bf16) (r : FVec Ideal S128x128 .bf16) (p : Fin 5000) (j : Fin 128) :
    matmul dot_S5000x128_S128x128_S5000x128_1_0_0_1_n_n none l r (constant (F := Ideal) S5000x128 .f32 0x00000000#32) (ix2 p j)
      = ∑ k : Fin 128, l (ix2 p k) * r (ix2 k j) := by
  refine (Ideal.matmul_constant_zero_apply dot_S5000x128_S128x128_S5000x128_1_0_0_1_n_n none l r (ix2 p j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p j) ((contrEquiv1 dot_S5000x128_S128x128_S5000x128_1_0_0_1_n_n 128 rfl rfl).symm k) = ix2 k j :=
    funext fun a => Fin.ext (by
      match a with
      | ⟨0, _⟩ => exact (rhs_row _ _).trans hk
      | ⟨1, _⟩ => exact rhs_col _ _)
  rw [el, er]

/-- The body's stored value at entry `(p, j)` of the block, from the six loaded values. -/
theorem payload_apply (a x : Vec Ideal S5000x128 .f32) (wn ws : Vec Ideal S128x128 .f32) (bn bs : Vec Ideal S1x128 .f32)
    (p : Fin 5000) (j : Fin 128) :
    k0_pay1 (F := Ideal) a x wn ws bn bs (ix2 p j)
      = ((∑ k : Fin 128, a (ix2 p k) * wn (ix2 k j)) + bn (ix2 (0 : Fin 1) j))
        + ((∑ k : Fin 128, x (ix2 p k) * ws (ix2 k j)) + bs (ix2 (0 : Fin 1) j)) := by
  unfold k0_pay1
  simp only [shapeCast_self]
  rw [addf_apply, addf_apply, addf_apply]
  refine congrArg₂ (· + ·) (congrArg₂ (· + ·) ?_ ?_) (congrArg₂ (· + ·) ?_ ?_)
  · exact blockProduct_apply _ _ p j
  · exact broadcastTo_1b_ab_apply bn _ p j
  · exact blockProduct_apply _ _ p j
  · exact broadcastTo_1b_ab_apply bs _ p j

end Cert.KernelIdeal.BlockValue

end
-- ==== Proof.Layer.lean ====
/-
  One entry of a graph-convolution layer that adds a projected neighbour sum to a projected node feature.

  With `A` the per-node neighbour sums and `X` the node features (both 100000 nodes by 128 features), two
  128-by-128 weight matrices stored contraction axis first (`Wn`, `Ws`: entry `(k, j)` multiplies feature `k` into
  output `j`) and two bias rows (`bn`, `bs`: one row of 128), entry `(p, j)` of the layer is

      (Σ_k A(p,k) · Wn(k,j) + bn(0,j)) + (Σ_k X(p,k) · Ws(k,j) + bs(0,j))

  on the extended reals, in exactly this grouping. Row `p` of the result depends on row `p` of `A` and of `X` only,
  which is why the rows can be computed 5000 at a time.
-/
import Idealize.ShloMosaic.PureOps.Ideal
import Idealize.ShloMosaic.Lib.ValueIdx

noncomputable section

open scoped BigOperators

namespace Cert.SageLayer

open Idealize.ShloMosaic Idealize.ShloMosaic.ValueIdx

/-- Nodes by features. -/
abbrev Nodes : Shape := ⟨2, ![100000, 128]⟩
/-- A weight matrix, contraction axis first. -/
abbrev Weights : Shape := ⟨2, ![128, 128]⟩
/-- A bias as one row. -/
abbrev BiasRow : Shape := ⟨2, ![1, 128]⟩

/-- One projection: row `p` of `M` against column `j` of `W`, plus the bias at `j`. -/
def proj (M : Nodes.Idx → EReal) (W : Weights.Idx → EReal) (b : BiasRow.Idx → EReal) (p : Fin 100000) (j : Fin 128) : EReal :=
  (∑ k : Fin 128, M (ix2 p k) * W (ix2 k j)) + b (ix2 (0 : Fin 1) j)

/-- The layer, entry by entry: the neighbour projection plus the self projection. -/
def layer (A X : Nodes.Idx → EReal) (Wn : Weights.Idx → EReal) (bn : BiasRow.Idx → EReal)
    (Ws : Weights.Idx → EReal) (bs : BiasRow.Idx → EReal) : Nodes.Idx → EReal :=
  fun i => proj A Wn bn (i 0) (i 1) + proj X Ws bs (i 0) (i 1)

/-- The layer at an index given by its two coordinates. -/
theorem layer_ix2 (A X : Nodes.Idx → EReal) (Wn : Weights.Idx → EReal) (bn : BiasRow.Idx → EReal)
    (Ws : Weights.Idx → EReal) (bs : BiasRow.Idx → EReal) (p : Fin 100000) (j : Fin 128) :
    layer A X Wn bn Ws bs (ix2 p j) = proj A Wn bn p j + proj X Ws bs p j := rfl

end Cert.SageLayer

end
-- ==== Proof.ArrayValue.lean ====
/-
  The kernel's result array after the run, as one function of the arrays its region finds.

  Entry `(p, j)` of block `t` of the result reads row `p` of block `t` of the neighbour sums and of the node
  features — row `5000·t + p` of those arrays — and the whole weight matrices and bias rows. So what grid point `t`
  writes back is block `t` of the layer of the whole arrays, and since the twenty blocks tile the 100000 rows (row
  `r` lies in block `r / 5000`), after the run the result array is the layer of the whole arrays.

  Each block read is stated once for arbitrary contents of the window's array, and only then used at the contents
  the region finds: what those contents are is never needed to know where a block sits.
-/
import proofs.«180615_j59596966199955_1_alg».proof.Proof.Blocks
import proofs.«180615_j59596966199955_1_alg».proof.Proof.BlockValue
import proofs.«180615_j59596966199955_1_alg».proof.Proof.Layer

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.SageLayer Cert.KernelIdeal.BlockValue Cert.KernelIdeal.Blocks
open Idealize.ShloMosaic.Pipeline (Dat)

variable (m : (ℓ : Loc nD τ sig) → Buf (Elt Ideal) ℓ) (ρ : Dev nD → PrngReg)

/-! ## The blocks the body loads, read off the arrays -/

theorem read_block0 (t : Fin cfg0.N) (A : ((cfg0.win 0).blk t).view.ty.Contents (Elt Ideal)) (p : Fin 5000) (k : Fin 128) :
    ((cfg0.win 0).blk t).view.read (Elt Ideal) A (ix2 p k) = A (ix2 (row t p) k) := by
  show A (((cfg0.win 0).blk t).view.emb (ix2 p k)) = _
  rw [emb_moving0 t p k]
theorem read0 (c : Dev nD) (t : Fin cfg0.N) (p : Fin 5000) (k : Fin 128) :
    iblk m c 0 t (ix2 p k) = V m c (Pipeline.arrRef spec0 0) (ix2 (row t p) k) :=
  read_block0 t (V m c (Pipeline.arrRef spec0 0)) p k

theorem read_block1 (t : Fin cfg0.N) (A : ((cfg0.win 1).blk t).view.ty.Contents (Elt Ideal)) (p : Fin 5000) (k : Fin 128) :
    ((cfg0.win 1).blk t).view.read (Elt Ideal) A (ix2 p k) = A (ix2 (row t p) k) := by
  show A (((cfg0.win 1).blk t).view.emb (ix2 p k)) = _
  rw [emb_moving1 t p k]
theorem read1 (c : Dev nD) (t : Fin cfg0.N) (p : Fin 5000) (k : Fin 128) :
    iblk m c 1 t (ix2 p k) = V m c (Pipeline.arrRef spec0 1) (ix2 (row t p) k) :=
  read_block1 t (V m c (Pipeline.arrRef spec0 1)) p k

theorem read_block2 (t : Fin cfg0.N) (A : ((cfg0.win 2).blk t).view.ty.Contents (Elt Ideal)) (k j : Fin 128) :
    ((cfg0.win 2).blk t).view.read (Elt Ideal) A (ix2 k j) = A (ix2 k j) := by
  show A (((cfg0.win 2).blk t).view.emb (ix2 k j)) = _
  rw [emb_fixed2 t k j]
theorem read2 (c : Dev nD) (t : Fin cfg0.N) (k j : Fin 128) :
    iblk m c 2 t (ix2 k j) = V m c (Pipeline.arrRef spec0 2) (ix2 k j) :=
  read_block2 t (V m c (Pipeline.arrRef spec0 2)) k j

theorem read_block4 (t : Fin cfg0.N) (A : ((cfg0.win 4).blk t).view.ty.Contents (Elt Ideal)) (k j : Fin 128) :
    ((cfg0.win 4).blk t).view.read (Elt Ideal) A (ix2 k j) = A (ix2 k j) := by
  show A (((cfg0.win 4).blk t).view.emb (ix2 k j)) = _
  rw [emb_fixed4 t k j]
theorem read4 (c : Dev nD) (t : Fin cfg0.N) (k j : Fin 128) :
    iblk m c 4 t (ix2 k j) = V m c (Pipeline.arrRef spec0 4) (ix2 k j) :=
  read_block4 t (V m c (Pipeline.arrRef spec0 4)) k j

theorem read_block3 (t : Fin cfg0.N) (A : ((cfg0.win 3).blk t).view.ty.Contents (Elt Ideal)) (u : Fin 1) (j : Fin 128) :
    ((cfg0.win 3).blk t).view.read (Elt Ideal) A (ix2 u j) = A (ix2 u j) := by
  show A (((cfg0.win 3).blk t).view.emb (ix2 u j)) = _
  rw [emb_fixed3 t u j]
theorem read3 (c : Dev nD) (t : Fin cfg0.N) (u : Fin 1) (j : Fin 128) :
    iblk m c 3 t (ix2 u j) = V m c (Pipeline.arrRef spec0 3) (ix2 u j) :=
  read_block3 t (V m c (Pipeline.arrRef spec0 3)) u j

theorem read_block5 (t : Fin cfg0.N) (A : ((cfg0.win 5).blk t).view.ty.Contents (Elt Ideal)) (u : Fin 1) (j : Fin 128) :
    ((cfg0.win 5).blk t).view.read (Elt Ideal) A (ix2 u j) = A (ix2 u j) := by
  show A (((cfg0.win 5).blk t).view.emb (ix2 u j)) = _
  rw [emb_fixed5 t u j]
theorem read5 (c : Dev nD) (t : Fin cfg0.N) (u : Fin 1) (j : Fin 128) :
    iblk m c 5 t (ix2 u j) = V m c (Pipeline.arrRef spec0 5) (ix2 u j) :=
  read_block5 t (V m c (Pipeline.arrRef spec0 5)) u j

/-! ## What a point writes back -/

/-- The layer of the arrays the region finds, in the windows' order: neighbour sums, features, the neighbour
    weights and bias, the self weights and bias. -/
def found (c : Dev nD) : Nodes.Idx → EReal :=
  layer (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- A value for the result's block `t` that agrees entry by entry with rows `5000·t …` of an array `G` is block `t`
    of `G`. -/
theorem block_of_rows (t : Fin cfg0.N) (G : Nodes.Idx → EReal) (P : Vec Ideal S5000x128 .f32)
    (h : ∀ (p : Fin 5000) (j : Fin 128), P (ix2 p j) = G (ix2 (row t p) j)) :
    (cfg0.win 6).cut (grid0.coords t) P = ((cfg0.win 6).blk t).view.read (Elt Ideal) G := by
  funext y
  obtain ⟨p, j, rfl⟩ : ∃ (p : Fin 5000) (j : Fin 128), y = ix2 p j := ⟨y 0, y 1, eq_ix2 y⟩
  show P (ix2 p j) = G (((cfg0.win 6).blk t).view.emb (ix2 p j))
  rw [emb_moving6 t p j]
  exact h p j

/-- Point `t` writes back block `t` of the layer of the arrays the region finds. -/
theorem flushed_eq (c : Dev nD) (t : Fin cfg0.N) :
    (dats m 0 c).flushed 6 t = ((cfg0.win 6).blk t).view.read (Elt Ideal) (found m c) := by
  rw [Cert.KernelIdeal.Value.flushed6]
  unfold out0_6
  rw [View.canon_unit_zero offsets_zero]
  simp only [View.ld_unit_zero (S := S5000x128) offsets_zero, View.ld_unit_zero (S := S128x128) offsets_zero,
    View.ld_unit_zero (S := S1x128) offsets_zero]
  refine block_of_rows t (found m c) _ fun p j => ?_
  refine (payload_apply _ _ _ _ _ _ p j).trans ?_
  unfold found
  rw [layer_ix2]
  unfold proj
  exact congrArg₂ (· + ·)
    (congrArg₂ (· + ·) (Finset.sum_congr rfl fun k _ => congrArg₂ (· * ·) (read0 m c t p k) (read2 m c t k j)) (read3 m c t 0 j))
    (congrArg₂ (· + ·) (Finset.sum_congr rfl fun k _ => congrArg₂ (· * ·) (read1 m c t p k) (read4 m c t k j)) (read5 m c t 0 j))

/-! ## The blocks tile the array -/

/-- An index of the result array is in point `t`'s block iff each coordinate is in the block's range on its axis. -/
theorem mem_block (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v18).slice (win0_6.rect t)).set ↔ _
  rw [View.set_slice_whole, Rect.mem_set_unit]
  exact Iff.rfl

/-- Every row lies in the block of the point `row / 5000`. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 5000 < cfg0.N := by show (i 0).val / 5000 < grid0.N; rw [N_0]; omega
  obtain ⟨-, -, -, -, -, -, -, -, -, -, -, -, e0, e1⟩ := block_indices ⟨(i 0).val / 5000, hN⟩
  have e0' : win0_6.index ⟨(i 0).val / 5000, hN⟩ (0 : Fin 2) = (i 0).val / 5000 := e0
  refine ⟨⟨(i 0).val / 5000, hN⟩, flush0_6 _, ?_⟩
  rw [mem_block]
  intro a
  match a with
  | ⟨0, _⟩ =>
    show win0_6.index ⟨(i 0).val / 5000, hN⟩ (0 : Fin 2) * 5000 ≤ (i 0).val
      ∧ (i 0).val < win0_6.index ⟨(i 0).val / 5000, hN⟩ (0 : Fin 2) * 5000 + 5000
    omega
  | ⟨1, _⟩ =>
    show win0_6.index ⟨(i 0).val / 5000, hN⟩ (1 : Fin 2) * 128 ≤ (i 1).val
      ∧ (i 1).val < win0_6.index ⟨(i 0).val / 5000, hN⟩ (1 : Fin 2) * 128 + 128
    omega

/-- After the run the result array is the layer of the arrays the region finds. -/
theorem final (c : Dev nD) : (dats m 0 c).arrAt 6 cfg0.N = found m c :=
  (dats m 0 c).arrAt_eq_of_cover 6 (found m c) (fun t _ => flushed_eq m c t) covered

end Cert.KernelIdeal.ArrayValue

end
-- ==== Proof.HostPrefix.lean ====
/-
  What the region's input windows find: the host program's prefix, read back.

  Before the region the kernel's host program computes the neighbour sums (a gather of the source rows per edge and
  an accumulating scatter into the destination rows, from zeros), transposes each weight matrix, and recasts each
  bias vector as one row. The neighbour sums and the transposes are the very operations the reference applies to the
  same arguments, so they are the reference's own intermediate arrays; they are never opened. A bias vector recast as
  one row and the reference's bias vector spread into one row agree entry by entry: both read the vector at the column.
-/
import proofs.«180615_j59596966199955_1_alg».proof.Proof.Gen.KernelIdeal.Frame
import proofs.«180615_j59596966199955_1_alg».proof.Proof.Gen.ReferenceIdeal.Read
import Idealize.ShloMosaic.Lib.StableHlo.Run
import Idealize.ShloMosaic.Lib.ValueLayout

noncomputable section

namespace Cert.KernelIdeal.HostPrefix

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The neighbour-sums window finds the reference's neighbour sums of the same features and edges: the same
    operations in the same order. -/
theorem neighbourSums (c : Dev nD) :
    V m c (Pipeline.arrRef spec0 0)
      = Cert.ReferenceIdeal.Read.val_main_v13 (F := Ideal) (m ((c : Thread nD τ).loc main_arg0)) (m ((c : Thread nD τ).loc main_arg1)) := by
  show V m c main_v13 = _
  dsimp only [V, hostOps0]
  after_results
  rfl

/-- The features window finds the features as launched. -/
theorem features (c : Dev nD) : V m c (Pipeline.arrRef spec0 1) = m ((c : Thread nD τ).loc main_arg0) :=
  V_main_arg0 m c

/-- The neighbour-weights window finds the transposed neighbour weights. -/
theorem neighWeights (c : Dev nD) :
    V m c (Pipeline.arrRef spec0 2) = Cert.ReferenceIdeal.Read.val_main_v14 (F := Ideal) (m ((c : Thread nD τ).loc main_arg2)) := by
  show V m c main_v14 = _
  dsimp only [V, hostOps0]
  after_results
  rfl

/-- The self-weights window finds the transposed self weights. -/
theorem selfWeights (c : Dev nD) :
    V m c (Pipeline.arrRef spec0 4) = Cert.ReferenceIdeal.Read.val_main_v19 (F := Ideal) (m ((c : Thread nD τ).loc main_arg4)) := by
  show V m c main_v15 = _
  dsimp only [V, hostOps0]
  after_results
  rfl

/-- A vector recast as one row is the vector spread into one row. -/
theorem row_eq (b : (⟨S128, .f32⟩ : BufTy).Contents (Elt Ideal)) :
    shapeCast S1x128 b shapeCasts_S128_S1x128 = Cert.ReferenceIdeal.Read.val_main_v16 (F := Ideal) b := by
  funext i
  obtain ⟨u, j, rfl⟩ : ∃ (u : Fin 1) (j : Fin 128), i = ix2 u j := ⟨i 0, i 1, eq_ix2 i⟩
  rw [Cert.ReferenceIdeal.Read.val_main_v16_apply]
  refine (shapeCast_a_1a_apply b shapeCasts_S128_S1x128 u j).trans ?_
  exact congrArg b (funext fun a => Fin.ext (by match a with | ⟨0, _⟩ => rfl))

/-- The neighbour-bias window finds the neighbour bias as one row. -/
theorem neighBias (c : Dev nD) :
    V m c (Pipeline.arrRef spec0 3) = Cert.ReferenceIdeal.Read.val_main_v16 (F := Ideal) (m ((c : Thread nD τ).loc main_arg3)) := by
  refine Eq.trans ?_ (row_eq (m ((c : Thread nD τ).loc main_arg3)))
  show V m c main_v16 = _
  dsimp only [V, hostOps0]
  after_results
  rfl

/-- The self-bias window finds the self bias as one row. -/
theorem selfBias (c : Dev nD) :
    V m c (Pipeline.arrRef spec0 5) = Cert.ReferenceIdeal.Read.val_main_v21 (F := Ideal) (m ((c : Thread nD τ).loc main_arg5)) := by
  refine Eq.trans ?_ (row_eq (m ((c : Thread nD τ).loc main_arg5)))
  show V m c main_v17 = _
  dsimp only [V, hostOps0]
  after_results
  rfl

end Cert.KernelIdeal.HostPrefix

end
-- ==== Proof.KernelRun.lean ====
/-
  The kernel's run, with its result named.

  After the run the result array is the layer of the arrays the region's windows find, and those are the reference's
  own intermediate arrays of the launch arguments: the neighbour sums, the features themselves, the transposed weight
  matrices and the bias rows. So every weakly fair execution of the kernel's program ends with the result array at
  the layer of those, and the arguments unchanged.
-/
import proofs.«180615_j59596966199955_1_alg».proof.Proof.ArrayValue
import proofs.«180615_j59596966199955_1_alg».proof.Proof.HostPrefix

noncomputable section

namespace Cert.KernelIdeal.KernelRun

open Cert.KernelIdeal Cert.KernelIdeal.Gen Idealize.ShloMosaic Idealize.ShloMosaic.TcCoe Idealize.SL.Sem
open Cert.SageLayer Cert.KernelIdeal.ArrayValue Cert.KernelIdeal.HostPrefix

variable (m : (ℓ : Loc nD τ sig) → Buf (Elt Ideal) ℓ) (ρ : Dev nD → PrngReg)

/-- The layer of the reference's intermediate arrays of core `c`'s launch arguments. -/
def result (c : Dev nD) : Nodes.Idx → EReal :=
  layer (Cert.ReferenceIdeal.Read.val_main_v13 (F := Ideal) (m ((c : Thread nD τ).loc main_arg0)) (m ((c : Thread nD τ).loc main_arg1)))
    (m ((c : Thread nD τ).loc main_arg0))
    (Cert.ReferenceIdeal.Read.val_main_v14 (F := Ideal) (m ((c : Thread nD τ).loc main_arg2)))
    (Cert.ReferenceIdeal.Read.val_main_v16 (F := Ideal) (m ((c : Thread nD τ).loc main_arg3)))
    (Cert.ReferenceIdeal.Read.val_main_v19 (F := Ideal) (m ((c : Thread nD τ).loc main_arg4)))
    (Cert.ReferenceIdeal.Read.val_main_v21 (F := Ideal) (m ((c : Thread nD τ).loc main_arg5)))

/-- What the region finds is what the reference computes from the same arguments. -/
theorem found_eq (c : Dev nD) : found m c = result m c := by
  unfold found result
  rw [neighbourSums m c, features m c, neighWeights m c, neighBias m c, selfWeights m c, selfBias m c]

/-- Every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (found_eq m c)), (h c).2⟩)
    (Cert.KernelIdeal.Value.run_blocks m ρ)

end Cert.KernelIdeal.KernelRun

end
-- ==== Proof.RefValue.lean ====
/-
  The reference's result, entry by entry, is the layer of its own intermediate arrays.

  The reference computes the neighbour sums `N` on the host, then `N · Wnᵀ + bn` and `X · Wsᵀ + bs` as two
  contractions over the feature axis against the transposed weight matrices, each plus its bias (made a row, then
  repeated along the rows), and adds the two. Read at entry `(p, j)`: a contraction is the sum over the feature `k`
  of the left operand's `(p, k)` times the transposed matrix's `(k, j)`, and the repeated bias row reads its one row at
  `j`. That is the layer of `N`, `X`, the transposed matrices and the bias rows, in the same grouping.
-/
import proofs.«180615_j59596966199955_1_alg».proof.Proof.Gen.ReferenceIdeal.Read
import proofs.«180615_j59596966199955_1_alg».proof.Proof.Layer

noncomputable section

open scoped BigOperators

namespace Cert.ReferenceIdeal.RefValue

open Cert.ReferenceIdeal Cert.ReferenceIdeal.Gen Cert.ReferenceIdeal.Read Idealize.ShloMosaic
open Idealize.ShloMosaic.ValueIdx Cert.SageLayer

/-- A contraction's left operand is read in the result's row, at the contracted feature; -/
theorem lidx15 (p : Fin 100000) (j k : Fin 128) : lidx_main_v15 (ix2 p j) k = ix2 p k :=
  funext fun a => Fin.ext (by match a with | ⟨0, _⟩ => rfl | ⟨1, _⟩ => rfl)
/-- its right operand at the contracted feature, in the result's column. -/
theorem ridx15 (p : Fin 100000) (j k : Fin 128) : ridx_main_v15 (ix2 p j) k = ix2 k j :=
  funext fun a => Fin.ext (by match a with | ⟨0, _⟩ => rfl | ⟨1, _⟩ => rfl)
theorem lidx20 (p : Fin 100000) (j k : Fin 128) : lidx_main_v20 (ix2 p j) k = ix2 p k :=
  funext fun a => Fin.ext (by match a with | ⟨0, _⟩ => rfl | ⟨1, _⟩ => rfl)
theorem ridx20 (p : Fin 100000) (j k : Fin 128) : ridx_main_v20 (ix2 p j) k = ix2 k j :=
  funext fun a => Fin.ext (by match a with | ⟨0, _⟩ => rfl | ⟨1, _⟩ => rfl)
/-- A bias row repeated along the rows reads its one row. -/
theorem idx17 (p : Fin 100000) (j : Fin 128) : idx_main_v17 (ix2 p j) = ix2 (0 : Fin 1) j :=
  funext fun a => Fin.ext (by match a with | ⟨0, _⟩ => rfl | ⟨1, _⟩ => rfl)
theorem idx22 (p : Fin 100000) (j : Fin 128) : idx_main_v22 (ix2 p j) = ix2 (0 : Fin 1) j :=
  funext fun a => Fin.ext (by match a with | ⟨0, _⟩ => rfl | ⟨1, _⟩ => rfl)

/-- The reference's result is the layer of its neighbour sums, the features, its transposed weight matrices and its
    bias rows. -/
theorem result_eq (x : (⟨S100000x128, .f32⟩ : BufTy).Contents (Elt Ideal)) (e : (⟨S2x1600000, .i32⟩ : BufTy).Contents (Elt Ideal))
    (Wn : (⟨S128x128, .f32⟩ : BufTy).Contents (Elt Ideal)) (bn : (⟨S128, .f32⟩ : BufTy).Contents (Elt Ideal))
    (Ws : (⟨S128x128, .f32⟩ : BufTy).Contents (Elt Ideal)) (bs : (⟨S128, .f32⟩ : BufTy).Contents (Elt Ideal)) :
    val_main_v24 (F := Ideal) x e Wn bn Ws bs
      = layer (val_main_v13 (F := Ideal) x e) x (val_main_v14 (F := Ideal) Wn) (val_main_v16 (F := Ideal) bn)
          (val_main_v19 (F := Ideal) Ws) (val_main_v21 (F := Ideal) bs) := by
  funext i
  obtain ⟨p, j, rfl⟩ : ∃ (p : Fin 100000) (j : Fin 128), i = ix2 p j := ⟨i 0, i 1, eq_ix2 i⟩
  rw [val_main_v24_apply, val_main_v18_apply, val_main_v23_apply, val_main_v15_apply, val_main_v20_apply,
    val_main_v17_apply, val_main_v22_apply, layer_ix2]
  unfold proj
  simp only [lidx15, ridx15, lidx20, ridx20, idx17, idx22]
  rfl

end Cert.ReferenceIdeal.RefValue

end
-- ==== Proof.lean ====
/-
  A graph-convolution layer over 100000 nodes with 128 features, tiled 5000 nodes at a time, against its plain
  reference: the two are equal on the extended reals.

  Both programs first compute the neighbour sums `N` on the host — for every edge the source node's feature row,
  accumulated into the destination node's row — by the same operations on the same arguments. The reference then
  returns `(N · Wnᵀ + bn) + (X · Wsᵀ + bs)`. The kernel transposes the two weight matrices and recasts the two biases as
  rows on the host, and its region computes, for each block of 5000 nodes, the block of `N` times `Wnᵀ` plus the bias
  row, the block of `X` times `Wsᵀ` plus the bias row, and their sum, with the operands narrowed to a shorter float
  format first. On the extended reals the narrowing is the identity, a product into a zero accumulator and a host
  contraction are the same sum over the feature axis, and a row of the result depends on the same row of `N` and `X`
  only; so block by block the kernel writes the rows of the one function

      (p, j) ↦ (Σ_k N(p,k) · Wn(j,k) + bn(j)) + (Σ_k X(p,k) · Ws(j,k) + bs(j)),

  in the reference's own grouping, and the twenty blocks tile the rows. No law that could fail at an infinity is
  used (no sum is reordered and nothing is distributed or cancelled), so the inputs' finiteness is never needed.

  The kernel's idealization rewrote no operation, so that it is the kernel's sanctioned idealization holds trivially.
  The three programs' runs terminate without a fault and leave their arguments unchanged: for the two kernel
  programs that is the region's launch, staging and write-back taken step by step, and for the reference it is its
  host run with the result dropped.
-/
import proofs.«180615_j59596966199955_1_alg».proof.Defs
import proofs.«180615_j59596966199955_1_alg».proof.Proof.Gen.Kernel
import proofs.«180615_j59596966199955_1_alg».proof.Proof.Gen.Kernel.Skeleton
import proofs.«180615_j59596966199955_1_alg».proof.Proof.Gen.Kernel.Launch
import proofs.«180615_j59596966199955_1_alg».proof.Proof.Gen.Kernel.Points
import proofs.«180615_j59596966199955_1_alg».proof.Proof.Gen.Kernel.Frame
import proofs.«180615_j59596966199955_1_alg».proof.Proof.Gen.KernelIdeal
import proofs.«180615_j59596966199955_1_alg».proof.Proof.Gen.KernelIdeal.Skeleton
import proofs.«180615_j59596966199955_1_alg».proof.Proof.Gen.KernelIdeal.Launch
import proofs.«180615_j59596966199955_1_alg».proof.Proof.Gen.KernelIdeal.Points
import proofs.«180615_j59596966199955_1_alg».proof.Proof.Gen.KernelIdeal.Frame
import proofs.«180615_j59596966199955_1_alg».proof.Proof.Gen.KernelIdeal.Value
import proofs.«180615_j59596966199955_1_alg».proof.Proof.Gen.ReferenceIdeal
import proofs.«180615_j59596966199955_1_alg».proof.Proof.Gen.ReferenceIdeal.Run
import proofs.«180615_j59596966199955_1_alg».proof.Proof.Gen.ReferenceIdeal.Read
import proofs.«180615_j59596966199955_1_alg».proof.Proof.Gen.Pre_finite_inputs
import proofs.«180615_j59596966199955_1_alg».proof.Proof.KernelRun
import proofs.«180615_j59596966199955_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's host run, with its result dropped, keeps its arguments. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, the kernel's result array ends at the layer of the reference's
    intermediate arrays of those arguments, and the reference's result is that same layer. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v24_eq _ _ _ _ _ _).trans (Cert.ReferenceIdeal.RefValue.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
